-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1 : Shape := ⟨2, ![32768, 1]⟩
abbrev S8x512x512 : Shape := ⟨3, ![8, 512, 512]⟩
abbrev S8x512 : Shape := ⟨2, ![8, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_v13 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v13 main_v17
  main_v18

def fn {F : FTy → Type} [FloatOps F] (main_arg0 : FVec F S32768x512 .f32) (main_arg1 : FVec F S32768x1 .f32) (main_arg2 : FVec F S8x512x512 .f32) (main_arg3 : FVec F S8x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1 .f32 := Host.absf main_arg1
  let main_cst_0 : FVec F S_ .f32 := constant S_ .f32 0x7F800000#32
  let main_v5 : FVec F S32768x1 .f32 := broadcastInDim S32768x1 ![] bcast_S_S32768x1 main_cst_0
  let main_v6 : IVec S32768x1 1 := cmpf .olt main_v4 main_v5
  let main_c_1 : IVec S_ 1 := constantI S_ 1 1#1
  let main_v7 : IVec S_ 1 := (fun x v => Host.reduce IntOp.andi x v reducesTo_S32768x1_S_d0_1 h_S_) main_v6 main_c_1
  let main_v8 : IVec S_ 1 := andi main_v3 main_v7
  let main_v9 : FVec F S8x512x512 .f32 := Host.absf main_arg2
  let main_cst_2 : FVec F S_ .f32 := constant S_ .f32 0x7F800000#32
  let main_v10 : FVec F S8x512x512 .f32 := broadcastInDim S8x512x512 ![] bcast_S_S8x512x512 main_cst_2
  let main_v11 : IVec S8x512x512 1 := cmpf .olt main_v9 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v8 main_v12
  let main_v14 : FVec F S8x512 .f32 := Host.absf main_arg3
  let main_cst_4 : FVec F S_ .f32 := constant S_ .f32 0x7F800000#32
  let main_v15 : FVec F S8x512 .f32 := broadcastInDim S8x512 ![] bcast_S_S8x512 main_cst_4
  let main_v16 : IVec S8x512 1 := cmpf .olt main_v14 main_v15
  fn_part1 (F := F) main_v13 main_v16
-- ==== Kernel.lean ====
abbrev S32768x512 : Shape := ⟨2, ![32768, 512]⟩
abbrev S32768x1 : Shape := ⟨2, ![32768, 1]⟩
abbrev S8x512x512 : Shape := ⟨3, ![8, 512, 512]⟩
abbrev S8x512 : Shape := ⟨2, ![8, 512]⟩
abbrev S512x512 : Shape := ⟨2, ![512, 512]⟩
abbrev S1x512 : Shape := ⟨2, ![1, 512]⟩
abbrev S512 : Shape := ⟨1, ![512]⟩
abbrev S2048x512 : Shape := ⟨2, ![2048, 512]⟩
abbrev S2048x1 : Shape := ⟨2, ![2048, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S8x512x512, .f32⟩
  | .hbm, ⟨3, _⟩ => ⟨S8x512, .f32⟩
  | .hbm, ⟨4, _⟩ => ⟨S512x512, .bf16⟩
  | .hbm, ⟨5, _⟩ => ⟨S1x512, .f32⟩
  | .hbm, ⟨6, _⟩ => ⟨S32768x512, .f32⟩
  | .local _ .vmem, ⟨0, _⟩ => ⟨S8x512x512, .f32⟩
  | .local _ .vmem, ⟨1, _⟩ => ⟨S8x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x1, .f32⟩
  | .local _ .vmem, ⟨7, _⟩ => ⟨S2048x1, .f32⟩
  | .local _ .vmem, ⟨8, _⟩ => ⟨S512x512, .bf16⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S8x512x512_S8x512x512_0_0_0 : ∀ a, (![0, 0, 0] : Fin 3 → Nat) a + S8x512x512.size a ≤ S8x512x512.size a
  h_S8x512x512 : 0 < S8x512x512.numel
  reduces_S8x512x512_S512x512 : S8x512x512.Reduces [0] S512x512
  transposes_S512x512_p1_0_S512x512 : S512x512.Transposes [1, 0] S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S8x512_S8x512_0_0 : ∀ a, (![0, 0] : Fin 2 → Nat) a + S8x512.size a ≤ S8x512.size a
  h_S8x512 : 0 < S8x512.numel
  reduces_S8x512_S512 : S8x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  inb_S2048x512_S2048x512_0_0 : ∀ a, (![0, 0] : Fin 2 → Nat) a + S2048x512.size a ≤ S2048x512.size a
  h_S2048x512 : 0 < S2048x512.numel
  shapeCasts_S512x512_S512x512 : S512x512.ShapeCasts S512x512
  shapeCasts_S1x512_S1x512 : S1x512.ShapeCasts S1x512
  broadcasts_S1x512_S2048x512 : S1x512.Broadcasts S2048x512
  inb_S2048x1_S2048x1_0_0 : ∀ a, (![0, 0] : Fin 2 → Nat) a + S2048x1.size a ≤ S2048x1.size a
  h_S2048x1 : 0 < S2048x1.numel
  broadcasts_S2048x1_S2048x512 : S2048x1.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S8x512x512.size a
  hwx0_0 : ∀ i : grid0.Coords, EltTy.bits .f32 = 32 ∨ (Rect.block (s := S8x512x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S32768x512.size a
  hwx1_0 : ∀ i : grid1.Coords, EltTy.bits .f32 = 32 ∨ (Rect.block (s := S32768x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S32768x1.size a
  hwx1_1 : ∀ i : grid1.Coords, EltTy.bits .f32 = 32 ∨ (Rect.block (s := S32768x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S32768x512.size a
  hwx1_4 : ∀ i : grid1.Coords, EltTy.bits .f32 = 32 ∨ (Rect.block (s := S32768x512) S2048x512.size (cc1_transform_4 i) (hinb1_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg2) S8x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x512 : Shape := ⟨2, ![32768, 512]⟩
abbrev S32768x1 : Shape := ⟨2, ![32768, 1]⟩
abbrev S8x512x512 : Shape := ⟨3, ![8, 512, 512]⟩
abbrev S8x512 : Shape := ⟨2, ![8, 512]⟩
abbrev S8x512x32768 : Shape := ⟨3, ![8, 512, 32768]⟩
abbrev S8x32768x512 : Shape := ⟨3, ![8, 32768, 512]⟩
abbrev S8x1x512 : Shape := ⟨3, ![8, 1, 512]⟩
abbrev S1x32768x1 : Shape := ⟨3, ![1, 32768, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S8x512x512, .f32⟩
  | .hbm, ⟨3, _⟩ => ⟨S8x512, .f32⟩
  | .hbm, ⟨4, _⟩ => ⟨S8x512x32768, .f32⟩
  | .hbm, ⟨5, _⟩ => ⟨S8x32768x512, .f32⟩
  | .hbm, ⟨6, _⟩ => ⟨S8x1x512, .f32⟩
  | .hbm, ⟨7, _⟩ => ⟨S8x32768x512, .f32⟩
  | .hbm, ⟨8, _⟩ => ⟨S8x32768x512, .f32⟩
  | .hbm, ⟨9, _⟩ => ⟨S1x32768x1, .f32⟩
  | .hbm, ⟨10, _⟩ => ⟨S8x32768x512, .f32⟩
  | .hbm, ⟨11, _⟩ => ⟨S8x32768x512, .f32⟩
  | .hbm, ⟨12, _⟩ => ⟨S_, .f32⟩
  | .hbm, ⟨13, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  transposes_S8x512x32768_S8x32768x512_0_2_1 : S8x512x32768.Transposes [0, 2, 1] S8x32768x512
  bcast_S8x512_S8x1x512_0_2 : S8x512.BroadcastsInDim S8x1x512 (![0, 2] : Fin 2 → Fin S8x1x512.rank)
  bcast_S8x1x512_S8x32768x512_0_1_2 : S8x1x512.BroadcastsInDim S8x32768x512 (![0, 1, 2] : Fin 3 → Fin S8x32768x512.rank)
  bcast_S32768x1_S1x32768x1_1_2 : S32768x1.BroadcastsInDim S1x32768x1 (![1, 2] : Fin 2 → Fin S1x32768x1.rank)
  bcast_S1x32768x1_S8x32768x512_0_1_2 : S1x32768x1.BroadcastsInDim S8x32768x512 (![0, 1, 2] : Fin 3 → Fin S8x32768x512.rank)
  reducesTo_S8x32768x512_S32768x512_d0 : S8x32768x512.ReducesTo [0] S32768x512
  h_S_ : 0 < S_.numel
  dot_S8x512x512_S32768x512_S8x512x32768_2_1_01_0_n_n_wf : DotDims.WF S8x512x512 S32768x512 S8x512x32768 [2] [1] [0, 1] [0] [] []

variable [Facts₀]

def dot_S8x512x512_S32768x512_S8x512x32768_2_1_01_0_n_n : DotDims S8x512x512 S32768x512 S8x512x32768 where
  lhsContracting := [2]
  rhsContracting := [1]
  lhsNonContracting := [0, 1]
  rhsNonContracting := [0]
  lhsBatch := []
  rhsBatch := []
  wf := dot_S8x512x512_S32768x512_S8x512x32768_2_1_01_0_n_n_wf

class Facts : Prop extends Facts₀ where

variable [Facts]
-- ==== Proof.MoeLaw.lean ====
/-
  Folding eight linear layers into one.

  For a row x (indexed by d), eight weight matrices W e (entry W e d for a fixed output column), eight biases b e and a
  row weight w, the weighted sum over the layers

      0 + Σ_e ((Σ_d W e d · x d) + b e) · w

  equals one layer with the summed weights and the summed bias, scaled once:

      ((Σ_d x d · Σ_e W e d) + Σ_e b e) · w.

  On the extended reals this needs every entry to be a real number: the distributive law and the exchange of the two
  sums fail at ±∞. For real entries both sides are computed in ℝ, where the identity is distributivity and
  Σ_d Σ_e = Σ_e Σ_d.
-/
import Idealize.ShloMosaic.PureOps.Ideal
import Idealize.ShloMosaic.Lib.ValueIdx

noncomputable section

open scoped BigOperators

namespace Cert.Moe

open Idealize.ShloMosaic Idealize.ShloMosaic.ValueIdx

/-- The inclusion of ℝ in the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in ℝ. -/
theorem fold_real {E D : Type} [Fintype E] [Fintype D] (x : D → ℝ) (W : E → D → ℝ) (b : E → ℝ) (w : ℝ) :
    ((∑ d, x d * ∑ e, W e d) + ∑ e, b e) * w = 0 + ∑ e, ((∑ d, W e d * x d) + b e) * w := by
  rw [zero_add, ← Finset.sum_mul, Finset.sum_add_distrib]
  congr 2
  simp only [Finset.mul_sum]
  rw [Finset.sum_comm]
  exact Finset.sum_congr rfl fun e _ => Finset.sum_congr rfl fun d _ => mul_comm _ _

/-- The identity on the extended reals, for entries that are real numbers. -/
theorem fold_ereal {E D : Type} [Fintype E] [Fintype D] (x : D → EReal) (W : E → D → EReal) (b : E → EReal) (w : EReal)
    (hx : ∀ d, ∃ r : ℝ, x d = (r : EReal)) (hW : ∀ e d, ∃ r : ℝ, W e d = (r : EReal))
    (hb : ∀ e, ∃ r : ℝ, b e = (r : EReal)) (hw : ∃ r : ℝ, w = (r : EReal)) :
    ((∑ d, x d * ∑ e, W e d) + ∑ e, b e) * w = 0 + ∑ e, ((∑ d, W e d * x d) + b e) * w := by
  choose x' hx' using hx
  choose W' hW' using hW
  choose b' hb' using hb
  obtain ⟨w', rfl⟩ := hw
  simp only [hx', hW', hb', ← EReal.coe_mul, ← coe_sum, ← EReal.coe_add, ← EReal.coe_zero]
  exact congrArg _ (fold_real x' W' b' w')

/-! ## The two sides over the arrays' literal shapes -/

/-- The summed weights, transposed: entry (d, f) is Σ_e W(e, f, d). -/
def wsumT (W : (⟨3, ![8, 512, 512]⟩ : Shape).Idx → EReal) : (⟨2, ![512, 512]⟩ : Shape).Idx → EReal :=
  fun i => ∑ e : Fin 8, W (ix3 e (i 1) (i 0))

/-- The summed bias as a row: entry (0, f) is Σ_e b(e, f). -/
def bsum (b : (⟨2, ![8, 512]⟩ : Shape).Idx → EReal) : (⟨2, ![1, 512]⟩ : Shape).Idx → EReal :=
  fun i => ∑ e : Fin 8, b (ix2 e (i 1))

/-- One dense layer with a bias row, each row scaled by its weight: entry (n, f) is
    ((Σ_d x(n, d) · Wt(d, f)) + bs(0, f)) · w(n, 0). -/
def dense (x : (⟨2, ![32768, 512]⟩ : Shape).Idx → EReal) (w : (⟨2, ![32768, 1]⟩ : Shape).Idx → EReal)
    (Wt : (⟨2, ![512, 512]⟩ : Shape).Idx → EReal) (bs : (⟨2, ![1, 512]⟩ : Shape).Idx → EReal) :
    (⟨2, ![32768, 512]⟩ : Shape).Idx → EReal :=
  fun i => ((∑ d : Fin 512, x (ix2 (i 0) d) * Wt (ix2 d (i 1))) + bs (ix2 (0 : Fin 1) (i 1))) * w (ix2 (i 0) (0 : Fin 1))

/-- The weighted sum of the eight layers' outputs: entry (n, f) is 0 + Σ_e ((Σ_d W(e, f, d) · x(n, d)) + b(e, f)) · w(n, 0). -/
def mixture (x : (⟨2, ![32768, 512]⟩ : Shape).Idx → EReal) (w : (⟨2, ![32768, 1]⟩ : Shape).Idx → EReal)
    (W : (⟨3, ![8, 512, 512]⟩ : Shape).Idx → EReal) (b : (⟨2, ![8, 512]⟩ : Shape).Idx → EReal) :
    (⟨2, ![32768, 512]⟩ : Shape).Idx → EReal :=
  fun i => 0 + ∑ e : Fin 8, ((∑ d : Fin 512, W (ix3 e (i 1) d) * x (ix2 (i 0) d)) + b (ix2 e (i 1))) * w (ix2 (i 0) (0 : Fin 1))

/-- With real entries, the one folded layer is the weighted sum of the eight. -/
theorem dense_fold_eq_mixture (x : (⟨2, ![32768, 512]⟩ : Shape).Idx → EReal) (w : (⟨2, ![32768, 1]⟩ : Shape).Idx → EReal)
    (W : (⟨3, ![8, 512, 512]⟩ : Shape).Idx → EReal) (b : (⟨2, ![8, 512]⟩ : Shape).Idx → EReal)
    (hx : ∀ i, ∃ r : ℝ, x i = (r : EReal)) (hw : ∀ i, ∃ r : ℝ, w i = (r : EReal))
    (hW : ∀ i, ∃ r : ℝ, W i = (r : EReal)) (hb : ∀ i, ∃ r : ℝ, b i = (r : EReal)) :
    dense x w (wsumT W) (bsum b) = mixture x w W b := by
  funext i
  exact fold_ereal (fun d : Fin 512 => x (ix2 (i 0) d)) (fun (e : Fin 8) (d : Fin 512) => W (ix3 e (i 1) d))
    (fun e : Fin 8 => b (ix2 e (i 1))) (w (ix2 (i 0) (0 : Fin 1))) (fun d => hx _) (fun e d => hW _) (fun e => hb _) (hw _)

end Cert.Moe

end
-- ==== Proof.MoeRun.lean ====
/-
  The two-call program's run, with its result named.

  The program launches two kernels one after the other. The first reads the stacked weights and biases and leaves two
  intermediate arrays; the second reads the input, the row weights and those two arrays and writes the result. Running
  @main from any memory, every fair execution ends, and the result array holds what the second kernel's write-backs leave
  when that kernel is entered from the memory the first one left; the four argument arrays end as they started.
-/
import proofs.«101756_j60687887892956_2_alg».proof.Proof.Gen.KernelIdeal.Frame

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of @main ends; the result array is the second kernel's output array after all sixteen of its
    write-backs, that kernel entered from the first kernel's exit memory; the arguments are unchanged. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 4),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Moe

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.MoeBody.lean ====
/-
  What the two kernel bodies compute, entry by entry, on the extended reals.

  The first kernel's two stored values: the eight weight matrices summed along the layer axis and then transposed
  (the change of float format that follows is the identity on the extended reals), and the eight bias rows summed along
  the layer axis, kept as a 1 × 512 row. The second kernel's stored value: the product of a 2048 × 512 block of inputs
  with the 512 × 512 matrix (accumulated from zero), plus the bias row on every row, times the row's weight on every
  column.
-/
import proofs.«101756_j60687887892956_2_alg».proof.Proof.Gen.KernelIdeal.Skeleton
import proofs.«101756_j60687887892956_2_alg».proof.Proof.LibPlainDot
import proofs.«101756_j60687887892956_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MoeBody

open Cert.KernelIdeal Cert.KernelIdeal.Gen Idealize.ShloMosaic Idealize.ShloMosaic.ValueIdx

/-- The summed and transposed weights at (d, f): Σ_e W(e, f, d). -/
theorem wsum_at (v0 : FVec Ideal S8x512x512 .f32) (d f : Fin 512) :
    k0_pay1 (F := Ideal) v0 (ix2 d f) = ∑ e : Fin 8, v0 (ix3 e f d) := by
  unfold k0_pay1
  rw [truncf_apply]
  refine (transpose_apply [1, 0] _ _ (ix2 d f) (ix2 f d) (fun b => by match b with | ⟨0, _⟩ => rfl | ⟨1, _⟩ => rfl)).trans ?_
  refine (Ideal.multiReduction_add_single v0 _ _ _ _ (ix2 f d)).trans ?_
  exact Finset.sum_congr rfl fun e _ => congrArg v0 (funext fun a => Fin.ext (by
    match a with | ⟨0, _⟩ => rfl | ⟨1, _⟩ => rfl | ⟨2, _⟩ => rfl))

/-- The summed bias row at (0, f): Σ_e b(e, f). -/
theorem bsum_at (v5 : FVec Ideal S8x512 .f32) (u : Fin 1) (f : Fin 512) :
    k0_pay2 (F := Ideal) v5 (ix2 u f) = ∑ e : Fin 8, v5 (ix2 e f) := by
  unfold k0_pay2
  refine (shapeCast_a_1a_apply _ _ u f).trans ?_
  refine (Ideal.multiReduction_add_single v5 _ _ _ _ (ix1 f)).trans ?_
  exact Finset.sum_congr rfl fun e _ => congrArg v5 (funext fun a => Fin.ext (by
    match a with | ⟨0, _⟩ => rfl | ⟨1, _⟩ => rfl))

/-- The dense block at (p, q): ((Σ_k x(p, k) · Wt(k, q)) + bs(0, q)) · w(p, 0). -/
theorem dense_at (x0 : FVec Ideal S2048x512 .f32) (x2 : FVec Ideal S512x512 .bf16) (x3 : FVec Ideal S1x512 .f32)
    (x1 : FVec Ideal S2048x1 .f32) (p : Fin 2048) (q : Fin 512) :
    k1_pay1 (F := Ideal) x0 x2 x3 x1 (ix2 p q)
      = ((∑ k : Fin 512, x0 (ix2 p k) * x2 (ix2 k q)) + x3 (ix2 (0 : Fin 1) q)) * x1 (ix2 p (0 : Fin 1)) := by
  have hdot : dot_S2048x512_S512x512_S2048x512_1_0_0_1_n_n = DotDims.plain 2048 512 512 :=
    Cert.Lib.PlainDot.eq_plain _ rfl rfl rfl rfl rfl rfl
  have e1 : ∀ (hc : S512x512.ShapeCasts S512x512) (ht : FTy.bits .bf16 < FTy.bits .f32),
      matmul dot_S2048x512_S512x512_S2048x512_1_0_0_1_n_n none (truncf .bf16 x0 ht) (shapeCast S512x512 x2 hc)
        (constant S2048x512 .f32 0x00000000#32) (ix2 p q) = ∑ k : Fin 512, x0 (ix2 p k) * x2 (ix2 k q) := by
    intro hc ht
    rw [hdot, shapeCast_self]
    exact Cert.Lib.PlainDot.matmul_zero_plain_apply none (truncf .bf16 x0 ht) x2 (ix2 p q)
  have e2 : ∀ (hc : S1x512.ShapeCasts S1x512) (hb : S1x512.Broadcasts S2048x512),
      broadcastTo S2048x512 (shapeCast S1x512 x3 hc) hb (ix2 p q) = x3 (ix2 (0 : Fin 1) q) := by
    intro hc hb
    rw [shapeCast_self]
    exact broadcastTo_1b_ab_apply x3 hb p q
  have e3 : ∀ (hb : S2048x1.Broadcasts S2048x512), broadcastTo S2048x512 x1 hb (ix2 p q) = x1 (ix2 p (0 : Fin 1)) :=
    fun hb => Cert.LibKeepdims.broadcastTo_a1_ab_apply x1 hb p q
  unfold k1_pay1
  rw [mulf_apply, addf_apply, e1, e2, e3]

end Cert.KernelIdeal.MoeBody

end
-- ==== Proof.MoePrep.lean ====
/-
  The first kernel's two output arrays.

  The first kernel runs at a single grid point whose blocks are the whole arrays. So after its one write-back the
  matrix array holds the summed, transposed weights — entry (d, f) is Σ_e W(e, f, d) — and the row array the summed
  biases — entry (0, f) is Σ_e b(e, f) —, W and b being the stacked weights and biases as the kernel finds them.
-/
import proofs.«101756_j60687887892956_2_alg».proof.Proof.Gen.KernelIdeal.Frame
import proofs.«101756_j60687887892956_2_alg».proof.Proof.MoeBody
import proofs.«101756_j60687887892956_2_alg».proof.Proof.MoeLaw
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.MoePrep

open Cert.KernelIdeal Cert.KernelIdeal.Gen Idealize.ShloMosaic.ValueIdx

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The weights' block at the one point is the whole stacked-weights array. -/
theorem weights_block (c : Dev nD) (t : Fin cfg0.N) (e : Fin 8) (f d : Fin 512) :
    (iblk0 V c 0 t : Vec Ideal S8x512x512 .f32) (ix3 e f d) = (V c main_arg2 : S8x512x512.Idx → EReal) (ix3 e f d) := by
  unfold iblk0
  rw [View.read_apply]
  show V c main_arg2 _ = V c main_arg2 _
  congr 1
  funext a
  apply Fin.ext
  match a with
  | ⟨0, _⟩ => show win0_0.index t 0 * 8 + 1 * e.val = e.val; rw [show win0_0.index t 0 = 0 from rfl]; omega
  | ⟨1, _⟩ => show win0_0.index t 1 * 512 + 1 * f.val = f.val; rw [show win0_0.index t 1 = 0 from rfl]; omega
  | ⟨2, _⟩ => show win0_0.index t 2 * 512 + 1 * d.val = d.val; rw [show win0_0.index t 2 = 0 from rfl]; omega

/-- The biases' block at the one point is the whole stacked-biases array. -/
theorem biases_block (c : Dev nD) (t : Fin cfg0.N) (e : Fin 8) (f : Fin 512) :
    (iblk0 V c 1 t : Vec Ideal S8x512 .f32) (ix2 e f) = (V c main_arg3 : S8x512.Idx → EReal) (ix2 e f) := by
  unfold iblk0
  rw [View.read_apply]
  show V c main_arg3 _ = V c main_arg3 _
  congr 1
  funext a
  apply Fin.ext
  match a with
  | ⟨0, _⟩ => show win0_1.index t 0 * 8 + 1 * e.val = e.val; rw [show win0_1.index t 0 = 0 from rfl]; omega
  | ⟨1, _⟩ => show win0_1.index t 1 * 512 + 1 * f.val = f.val; rw [show win0_1.index t 1 = 0 from rfl]; omega

/-- What the point writes back to the matrix array is the block of the summed, transposed weights. -/
theorem flushed_wsum (c : Dev nD) (t : Fin cfg0.N) :
    (dat0 V c).flushed 2 t = ((cfg0.win 2).blk t).view.read (Elt Ideal) (Cert.Moe.wsumT (V c main_arg2)) := by
  show (cfg0.win 2).cut (grid0.coords t) ((dat0 V c).after 2 t) = _
  rw [after0_2]
  unfold out0_2
  rw [View.canon_unit_zero hz2]
  simp only [View.ld_unit_zero (S := S8x512x512) hz3]
  funext j
  obtain ⟨d, f, rfl⟩ : ∃ (d f : Fin 512), j = ix2 d f := ⟨j 0, j 1, eq_ix2 j⟩
  refine (Cert.KernelIdeal.MoeBody.wsum_at _ d f).trans ?_
  have hemb : ((cfg0.win 2).blk t).view.emb (ix2 d f) = ix2 d f := funext fun a => Fin.ext (by
    match a with
    | ⟨0, _⟩ => show win0_2.index t 0 * 512 + 1 * d.val = d.val; rw [show win0_2.index t 0 = 0 from rfl]; omega
    | ⟨1, _⟩ => show win0_2.index t 1 * 512 + 1 * f.val = f.val; rw [show win0_2.index t 1 = 0 from rfl]; omega)
  show _ = Cert.Moe.wsumT (V c main_arg2) (((cfg0.win 2).blk t).view.emb (ix2 d f))
  rw [hemb]
  exact Finset.sum_congr rfl fun e _ => weights_block V c t e f d

/-- What the point writes back to the row array is the block of the summed biases. -/
theorem flushed_bsum (c : Dev nD) (t : Fin cfg0.N) :
    (dat0 V c).flushed 3 t = ((cfg0.win 3).blk t).view.read (Elt Ideal) (Cert.Moe.bsum (V c main_arg3)) := by
  show (cfg0.win 3).cut (grid0.coords t) ((dat0 V c).after 3 t) = _
  rw [after0_3]
  unfold out0_3
  rw [View.canon_unit_zero hz2]
  simp only [View.ld_unit_zero (S := S8x512) hz2]
  funext j
  obtain ⟨u, f, rfl⟩ : ∃ (u : Fin 1) (f : Fin 512), j = ix2 u f := ⟨j 0, j 1, eq_ix2 j⟩
  refine (Cert.KernelIdeal.MoeBody.bsum_at _ u f).trans ?_
  have hemb : ((cfg0.win 3).blk t).view.emb (ix2 u f) = ix2 u f := funext fun a => Fin.ext (by
    match a with
    | ⟨0, _⟩ => show win0_3.index t 0 * 1 + 1 * u.val = u.val; rw [show win0_3.index t 0 = 0 from rfl]; omega
    | ⟨1, _⟩ => show win0_3.index t 1 * 512 + 1 * f.val = f.val; rw [show win0_3.index t 1 = 0 from rfl]; omega)
  show _ = Cert.Moe.bsum (V c main_arg3) (((cfg0.win 3).blk t).view.emb (ix2 u f))
  rw [hemb]
  exact Finset.sum_congr rfl fun e _ => biases_block V c t e f

/-- The one point's block of the matrix array is the whole array. -/
theorem cover_wsum (i : S512x512.Idx) : ∃ t : Fin cfg0.N, (cfg0.win 2).flush t = true ∧ i ∈ ((cfg0.win 2).blk t).view.set := by
  refine ⟨t0_0, flush0_2 t0_0, ?_⟩
  show i ∈ ((View.whole main_v0_0).slice (win0_2.rect t0_0)).set
  rw [View.set_slice_whole, Rect.mem_set_unit]
  intro a
  have h0 : (i 0).val < 512 := (i 0).isLt
  have h1 : (i 1).val < 512 := (i 1).isLt
  match a with
  | ⟨0, _⟩ => show win0_2.index t0_0 0 * 512 ≤ (i 0).val ∧ (i 0).val < win0_2.index t0_0 0 * 512 + 512
              rw [show win0_2.index t0_0 0 = 0 from rfl]; omega
  | ⟨1, _⟩ => show win0_2.index t0_0 1 * 512 ≤ (i 1).val ∧ (i 1).val < win0_2.index t0_0 1 * 512 + 512
              rw [show win0_2.index t0_0 1 = 0 from rfl]; omega

/-- The one point's block of the row array is the whole array. -/
theorem cover_bsum (i : S1x512.Idx) : ∃ t : Fin cfg0.N, (cfg0.win 3).flush t = true ∧ i ∈ ((cfg0.win 3).blk t).view.set := by
  refine ⟨t0_0, flush0_3 t0_0, ?_⟩
  show i ∈ ((View.whole main_v0_1).slice (win0_3.rect t0_0)).set
  rw [View.set_slice_whole, Rect.mem_set_unit]
  intro a
  have h0 : (i 0).val < 1 := (i 0).isLt
  have h1 : (i 1).val < 512 := (i 1).isLt
  match a with
  | ⟨0, _⟩ => show win0_3.index t0_0 0 * 1 ≤ (i 0).val ∧ (i 0).val < win0_3.index t0_0 0 * 1 + 1
              rw [show win0_3.index t0_0 0 = 0 from rfl]; omega
  | ⟨1, _⟩ => show win0_3.index t0_0 1 * 512 ≤ (i 1).val ∧ (i 1).val < win0_3.index t0_0 1 * 512 + 512
              rw [show win0_3.index t0_0 1 = 0 from rfl]; omega

/-- After the first kernel the matrix array holds the summed, transposed weights. -/
theorem wsum_array (c : Dev nD) : (dat0 V c).arrAt 2 cfg0.N = Cert.Moe.wsumT (V c main_arg2) :=
  (dat0 V c).arrAt_eq_of_cover 2 (Cert.Moe.wsumT (V c main_arg2)) (fun t _ => flushed_wsum V c t) cover_wsum

/-- After the first kernel the row array holds the summed biases. -/
theorem bsum_array (c : Dev nD) : (dat0 V c).arrAt 3 cfg0.N = Cert.Moe.bsum (V c main_arg3) :=
  (dat0 V c).arrAt_eq_of_cover 3 (Cert.Moe.bsum (V c main_arg3)) (fun t _ => flushed_bsum V c t) cover_bsum

end Cert.KernelIdeal.MoePrep

end
-- ==== Proof.MoeDense.lean ====
/-
  The second kernel's output array.

  The second kernel runs at sixteen grid points. At point t it reads rows 2048·t … 2048·t + 2047 of the input and of the
  row weights, the whole 512 × 512 matrix and the whole bias row, and writes rows 2048·t … 2048·t + 2047 of the result:
  entry (n, f) is ((Σ_d x(n, d) · Wt(d, f)) + bs(0, f)) · w(n, 0). Row n lies in the block of point n / 2048, so the sixteen
  write-backs fill the array with that one function of the four arrays the kernel finds.
-/
import proofs.«101756_j60687887892956_2_alg».proof.Proof.Gen.KernelIdeal.Frame
import proofs.«101756_j60687887892956_2_alg».proof.Proof.MoeBody
import proofs.«101756_j60687887892956_2_alg».proof.Proof.MoeLaw
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.MoeDense

open Cert.KernelIdeal Cert.KernelIdeal.Gen Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The block indices at point t: the input, the row weights and the result move with t along the rows; the matrix
    and the bias row stay. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the input's block at point t is row 2048·t + p of the input. -/
theorem input_block (c : Dev nD) (t : Fin cfg1.N) (p : Fin 2048) (k : Fin 512) (n : Fin 32768) (hn : n.val = 2048 * t.val + p.val) :
    (iblk1 V c 0 t : Vec Ideal S2048x512 .f32) (ix2 p k) = (V c main_arg0 : S32768x512.Idx → EReal) (ix2 n k) := by
  obtain ⟨e0, e1, -⟩ := block_indices t
  unfold iblk1
  rw [View.read_apply]
  show V c main_arg0 _ = V c main_arg0 _
  congr 1
  funext a
  apply Fin.ext
  match a with
  | ⟨0, _⟩ => show win1_0.index t 0 * 2048 + 1 * p.val = n.val; rw [e0, hn]; omega
  | ⟨1, _⟩ => show win1_0.index t 1 * 512 + 1 * k.val = k.val; rw [e1]; omega

/-- Row p of the row weights' block at point t is row 2048·t + p of the row weights. -/
theorem rowweight_block (c : Dev nD) (t : Fin cfg1.N) (p : Fin 2048) (n : Fin 32768) (hn : n.val = 2048 * t.val + p.val) :
    (iblk1 V c 1 t : Vec Ideal S2048x1 .f32) (ix2 p (0 : Fin 1)) = (V c main_arg1 : S32768x1.Idx → EReal) (ix2 n (0 : Fin 1)) := by
  obtain ⟨-, -, e2, e3, -⟩ := block_indices t
  unfold iblk1
  rw [View.read_apply]
  show V c main_arg1 _ = V c main_arg1 _
  congr 1
  funext a
  apply Fin.ext
  match a with
  | ⟨0, _⟩ => show win1_1.index t 0 * 2048 + 1 * p.val = n.val; rw [e2, hn]; omega
  | ⟨1, _⟩ => show win1_1.index t 1 * 1 + 1 * 0 = 0; rw [e3]

/-- The matrix's block at every point is the whole matrix. -/
theorem matrix_block (c : Dev nD) (t : Fin cfg1.N) (k q : Fin 512) :
    (iblk1 V c 2 t : Vec Ideal S512x512 .bf16) (ix2 k q) = (V c main_v0_0 : S512x512.Idx → EReal) (ix2 k q) := by
  obtain ⟨-, -, -, -, e4, e5, -⟩ := block_indices t
  unfold iblk1
  rw [View.read_apply]
  show V c main_v0_0 _ = V c main_v0_0 _
  congr 1
  funext a
  apply Fin.ext
  match a with
  | ⟨0, _⟩ => show win1_2.index t 0 * 512 + 1 * k.val = k.val; rw [e4]; omega
  | ⟨1, _⟩ => show win1_2.index t 1 * 512 + 1 * q.val = q.val; rw [e5]; omega

/-- The bias row's block at every point is the whole row. -/
theorem biasrow_block (c : Dev nD) (t : Fin cfg1.N) (q : Fin 512) :
    (iblk1 V c 3 t : Vec Ideal S1x512 .f32) (ix2 (0 : Fin 1) q) = (V c main_v0_1 : S1x512.Idx → EReal) (ix2 (0 : Fin 1) q) := by
  obtain ⟨-, -, -, -, -, -, e6, e7, -⟩ := block_indices t
  unfold iblk1
  rw [View.read_apply]
  show V c main_v0_1 _ = V c main_v0_1 _
  congr 1
  funext a
  apply Fin.ext
  match a with
  | ⟨0, _⟩ => show win1_3.index t 0 * 1 + 1 * 0 = 0; rw [e6]
  | ⟨1, _⟩ => show win1_3.index t 1 * 512 + 1 * q.val = q.val; rw [e7]; omega

/-- What point t writes back is its block of the dense layer of the four arrays the kernel finds. -/
theorem flushed_dense (c : Dev nD) (t : Fin cfg1.N) :
    (dat1 V c).flushed 4 t = ((cfg1.win 4).blk t).view.read (Elt Ideal)
      (Cert.Moe.dense (V c main_arg0) (V c main_arg1) (V c main_v0_0) (V c main_v0_1)) := by
  show (cfg1.win 4).cut (grid1.coords t) ((dat1 V c).after 4 t) = _
  rw [after1_4]
  unfold out1_4
  rw [View.canon_unit_zero hz2]
  simp only [View.ld_unit_zero (S := S2048x512) hz2, View.ld_unit_zero (S := S512x512) hz2,
    View.ld_unit_zero (S := S1x512) hz2, View.ld_unit_zero (S := S2048x1) hz2]
  funext j
  obtain ⟨p, q, rfl⟩ : ∃ (p : Fin 2048) (q : Fin 512), j = ix2 p q := ⟨j 0, j 1, eq_ix2 j⟩
  refine (Cert.KernelIdeal.MoeBody.dense_at _ _ _ _ p q).trans ?_
  have ht : t.val < 16 := by have := t.isLt; have hN : cfg1.N = 16 := N_1; omega
  obtain ⟨-, -, -, -, -, -, -, -, e8, e9⟩ := block_indices t
  have hemb : ((cfg1.win 4).blk t).view.emb (ix2 p q) = ix2 (⟨2048 * t.val + p.val, by omega⟩ : Fin 32768) q :=
    funext fun a => Fin.ext (by
      match a with
      | ⟨0, _⟩ => show win1_4.index t 0 * 2048 + 1 * p.val = 2048 * t.val + p.val; rw [e8]; omega
      | ⟨1, _⟩ => show win1_4.index t 1 * 512 + 1 * q.val = q.val; rw [e9]; omega)
  show _ = Cert.Moe.dense (V c main_arg0) (V c main_arg1) (V c main_v0_0) (V c main_v0_1) (((cfg1.win 4).blk t).view.emb (ix2 p q))
  rw [hemb]
  unfold Cert.Moe.dense
  exact congrArg₂ (· * ·)
    (congrArg₂ (· + ·)
      (Finset.sum_congr rfl fun k _ => congrArg₂ (· * ·) (input_block V c t p k _ rfl) (matrix_block V c t k q))
      (biasrow_block V c t q))
    (rowweight_block V c t p _ rfl)

/-- An index lies in point t's block of the result iff each coordinate lies in the block's range on its axis. -/
theorem mem_block (t : Fin cfg1.N) (i : S32768x512.Idx) :
    i ∈ ((cfg1.win 4).blk t).view.set ↔ ∀ a : Fin 2, win1_4.index t a * S2048x512.size a ≤ (i a).val
      ∧ (i a).val < win1_4.index t a * S2048x512.size a + S2048x512.size a := by
  show i ∈ ((View.whole main_v1).slice (win1_4.rect t)).set ↔ _
  rw [View.set_slice_whole, Rect.mem_set_unit]
  exact Iff.rfl

/-- Row n of the result lies in the block of point n / 2048. -/
theorem cover_dense (i : S32768x512.Idx) : ∃ t : Fin cfg1.N, (cfg1.win 4).flush t = true ∧ i ∈ ((cfg1.win 4).blk t).view.set := by
  have h0 : (i 0).val < 32768 := (i 0).isLt
  have h1 : (i 1).val < 512 := (i 1).isLt
  have hN : cfg1.N = 16 := N_1
  obtain ⟨t, ht⟩ : ∃ t : Fin cfg1.N, t.val = (i 0).val / 2048 := ⟨⟨(i 0).val / 2048, by rw [hN]; omega⟩, rfl⟩
  obtain ⟨-, -, -, -, -, -, -, -, e8, e9⟩ := block_indices t
  refine ⟨t, flush1_4 t, ?_⟩
  rw [mem_block]
  intro a
  match a with
  | ⟨0, _⟩ => show win1_4.index t 0 * 2048 ≤ (i 0).val ∧ (i 0).val < win1_4.index t 0 * 2048 + 2048
              rw [e8, ht]; omega
  | ⟨1, _⟩ => show win1_4.index t 1 * 512 ≤ (i 1).val ∧ (i 1).val < win1_4.index t 1 * 512 + 512
              rw [e9]; omega

/-- After the second kernel the result array holds the dense layer of the four arrays the kernel finds. -/
theorem dense_array (c : Dev nD) :
    (dat1 V c).arrAt 4 cfg1.N = Cert.Moe.dense (V c main_arg0) (V c main_arg1) (V c main_v0_0) (V c main_v0_1) :=
  (dat1 V c).arrAt_eq_of_cover 4 (Cert.Moe.dense (V c main_arg0) (V c main_arg1) (V c main_v0_0) (V c main_v0_1))
    (fun t _ => flushed_dense V c t) cover_dense

end Cert.KernelIdeal.MoeDense

end
-- ==== Proof.MoeKernel.lean ====
/-
  The two kernels composed.

  The second kernel is entered from the memory the first one left: the input and the row weights are the launch
  memory's (the first kernel does not write them), the matrix is the summed, transposed weights and the bias row the
  summed biases of the launch memory's stacked weights and biases. So the program's result is one dense layer with the
  summed parameters, each row scaled by its weight.
-/
import proofs.«101756_j60687887892956_2_alg».proof.Proof.MoeRun
import proofs.«101756_j60687887892956_2_alg».proof.Proof.MoePrep
import proofs.«101756_j60687887892956_2_alg».proof.Proof.MoeDense

set_option maxRecDepth 16384

noncomputable section

open Idealize.ShloMosaic Idealize.ShloMosaic.TcCoe Idealize.SL.Sem

namespace Cert.KernelIdeal.Moe

open Cert.KernelIdeal Cert.KernelIdeal.Gen

variable (m : (ℓ : Loc nD τ sig) → Buf (Elt Ideal) ℓ) (ρ : Dev nD → PrngReg)

/-- The result array after both kernels, as a function of the launch memory's four argument arrays. -/
theorem result_array (c : Dev nD) :
    (dat1 (V1 m ρ) c).arrAt 4 cfg1.N
      = Cert.Moe.dense (m ((c.tc : Thread nD τ).loc main_arg0)) (m ((c.tc : Thread nD τ).loc main_arg1))
          (Cert.Moe.wsumT (m ((c.tc : Thread nD τ).loc main_arg2))) (Cert.Moe.bsum (m ((c.tc : Thread nD τ).loc main_arg3))) := by
  have a0 : V1 m ρ c main_arg0 = m ((c.tc : Thread nD τ).loc main_arg0) := W1_of_ne m ρ c main_arg0 (by decide)
  have a1 : V1 m ρ c main_arg1 = m ((c.tc : Thread nD τ).loc main_arg1) := W1_of_ne m ρ c main_arg1 (by decide)
  have a2 : V1 m ρ c main_v0_0 = Cert.Moe.wsumT (m ((c.tc : Thread nD τ).loc main_arg2)) :=
    (W1_arr m ρ c 2).trans (Cert.KernelIdeal.MoePrep.wsum_array (V0 m ρ) c)
  have a3 : V1 m ρ c main_v0_1 = Cert.Moe.bsum (m ((c.tc : Thread nD τ).loc main_arg3)) :=
    (W1_arr m ρ c 3).trans (Cert.KernelIdeal.MoePrep.bsum_array (V0 m ρ) c)
  rw [Cert.KernelIdeal.MoeDense.dense_array (V1 m ρ) c, a0, a1, a2, a3]

/-- Every fair execution of @main ends with the result array at the folded dense layer of the arguments, the arguments
    unchanged. -/
theorem run_dense : θ_run defs (onTc (τ := τ) (main (F := Ideal))) ⟨m, fun _ => 0, ρ⟩ (fun r => ∀ c : Dev nD,
      r.2.mem ((c.tc : Thread nD τ).loc main_v1)
        = Cert.Moe.dense (m ((c.tc : Thread nD τ).loc main_arg0)) (m ((c.tc : Thread nD τ).loc main_arg1))
            (Cert.Moe.wsumT (m ((c.tc : Thread nD τ).loc main_arg2))) (Cert.Moe.bsum (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_array m ρ c), (h c).2⟩) (run_result m ρ)

end Cert.KernelIdeal.Moe

end
-- ==== Proof.MoeRef.lean ====
/-
  The reference, entry by entry.

  The reference contracts the weights with the input over d (giving (e, f, n)), swaps the last two axes, adds the bias
  of layer e on every row, multiplies by the row's weight, and sums the eight layers from zero. At an output index (n, f)
  that is  0 + Σ_e ((Σ_d W(e, f, d) · x(n, d)) + b(e, f)) · w(n, 0).
-/
import proofs.«101756_j60687887892956_2_alg».proof.Proof.Gen.ReferenceIdeal.Read
import proofs.«101756_j60687887892956_2_alg».proof.Proof.MoeLaw

noncomputable section

open scoped BigOperators

namespace Cert.ReferenceIdeal.MoeRef

open Cert.ReferenceIdeal Cert.ReferenceIdeal.Read Idealize.ShloMosaic Idealize.ShloMosaic.ValueIdx

/-- The reference's last stage is the weighted sum of the eight layers' outputs. -/
theorem ref_eq_mixture (x0 : (⟨S32768x512, .f32⟩ : BufTy).Contents (Elt Ideal)) (x1 : (⟨S32768x1, .f32⟩ : BufTy).Contents (Elt Ideal))
    (x2 : (⟨S8x512x512, .f32⟩ : BufTy).Contents (Elt Ideal)) (x3 : (⟨S8x512, .f32⟩ : BufTy).Contents (Elt Ideal)) :
    val_main_v8 (F := Ideal) x0 x1 x2 x3 = Cert.Moe.mixture x0 x1 x2 x3 := by
  funext i
  rw [val_main_v8_apply]
  unfold Cert.Moe.mixture
  refine congrArg₂ (· + ·) ?_ (Finset.sum_congr rfl fun e _ => ?_)
  · show Ideal.ofBits .f32 0x00000000#32 = 0
    exact Ideal.ofBits_zero_f32
  · rw [val_main_v7_apply, val_main_v4_apply, val_main_v1_apply, val_main_v0_apply, val_main_v3_apply, val_main_v2_apply,
      val_main_v6_apply, val_main_v5_apply]
    have a1 : ∀ k : Fin 512, lidx_main_v0 (idx_main_v1 (idx_main_v8 i e)) k = ix3 e (i 1) k := fun k =>
      funext fun a => Fin.ext (by match a with | ⟨0, _⟩ => rfl | ⟨1, _⟩ => rfl | ⟨2, _⟩ => rfl)
    have a2 : ∀ k : Fin 512, ridx_main_v0 (idx_main_v1 (idx_main_v8 i e)) k = ix2 (i 0) k := fun k =>
      funext fun a => Fin.ext (by match a with | ⟨0, _⟩ => rfl | ⟨1, _⟩ => rfl)
    have a3 : idx_main_v2 (idx_main_v3 (idx_main_v8 i e)) = ix2 e (i 1) :=
      funext fun a => Fin.ext (by match a with | ⟨0, _⟩ => rfl | ⟨1, _⟩ => rfl)
    have a4 : idx_main_v5 (idx_main_v6 (idx_main_v8 i e)) = ix2 (i 0) (0 : Fin 1) :=
      funext fun a => Fin.ext (by match a with | ⟨0, _⟩ => rfl | ⟨1, _⟩ => rfl)
    simp only [a1, a2, a3, a4]
    rfl

end Cert.ReferenceIdeal.MoeRef

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.MoeFinite.lean ====
/-
  The precondition read back: every entry of the four argument arrays is a real number.

  The predicate is the conjunction, over the four arrays, of  all(|a| < +inf); it equals 1 exactly when each of the four
  reductions does, and each of those says that every entry of its array is a real number.
-/
import proofs.«101756_j60687887892956_2_alg».proof.Pre_finite_inputs
import proofs.«101756_j60687887892956_2_alg».proof.Proof.LibFinite

noncomputable section

namespace Cert.Moe.Finite

open Idealize.ShloMosaic Idealize.ShloMosaic.ValueIdx Cert.Pre_finite_inputs

/-- If the finiteness predicate of the four arrays is 1, every entry of each is a real number. -/
theorem real_of_pre [Cert.Pre_finite_inputs.Facts] (a0 : FVec Ideal S32768x512 .f32) (a1 : FVec Ideal S32768x1 .f32)
    (a2 : FVec Ideal S8x512x512 .f32) (a3 : FVec Ideal S8x512 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  obtain ⟨h012, h3⟩ := IntOp.andi_eq_one.mp (congrFun h ix0)
  obtain ⟨h01, h2⟩ := IntOp.andi_eq_one.mp h012
  obtain ⟨h0, h1⟩ := IntOp.andi_eq_one.mp h01
  exact ⟨Cert.LibFinite.real_of_all a0 _ _ _ ix0 h0, Cert.LibFinite.real_of_all a1 _ _ _ ix0 h1,
    Cert.LibFinite.real_of_all a2 _ _ _ ix0 h2, Cert.LibFinite.real_of_all a3 _ _ _ ix0 h3⟩

end Cert.Moe.Finite

end
-- ==== Proof.lean ====
/-
  A mixture of eight linear layers with row weights, against one folded layer.

  The reference computes, for an input x (32768 × 512), row weights w (32768 × 1), stacked weights W (8 × 512 × 512) and
  stacked biases b (8 × 512),
      out(n, f) = 0 + Σ_e ((Σ_d W(e, f, d) · x(n, d)) + b(e, f)) · w(n, 0).
  The kernel program first sums the weights over the layers and transposes them, Wt(d, f) = Σ_e W(e, f, d), and sums the
  biases, bs(0, f) = Σ_e b(e, f); then it computes one layer,
      out(n, f) = ((Σ_d x(n, d) · Wt(d, f)) + bs(0, f)) · w(n, 0),
  in sixteen row blocks. On the extended reals the changes of float format are the identity, and for finite inputs — the
  precondition — both are computed in ℝ, where they agree by the distributive law and an exchange of the sums over d and
  e. The finiteness is needed: at ±∞ the distributive law fails.

  The three run claims are the programs' runs; the idealization rewrote nothing, so that claim is trivial; the equality of
  results joins the kernel program's run (the two kernels composed), the reference's run read entry by entry, the
  precondition read back as "every entry is real", and the algebraic identity.
-/
import proofs.«101756_j60687887892956_2_alg».proof.Defs
import proofs.«101756_j60687887892956_2_alg».proof.Proof.Gen.Kernel
import proofs.«101756_j60687887892956_2_alg».proof.Proof.Gen.Kernel.Frame
import proofs.«101756_j60687887892956_2_alg».proof.Proof.Gen.KernelIdeal
import proofs.«101756_j60687887892956_2_alg».proof.Proof.Gen.KernelIdeal.Frame
import proofs.«101756_j60687887892956_2_alg».proof.Proof.Gen.ReferenceIdeal
import proofs.«101756_j60687887892956_2_alg».proof.Proof.Gen.Pre_finite_inputs
import proofs.«101756_j60687887892956_2_alg».proof.Proof.Gen.ReferenceIdeal.Run
import proofs.«101756_j60687887892956_2_alg».proof.Proof.Gen.ReferenceIdeal.Read
import proofs.«101756_j60687887892956_2_alg».proof.Proof.MoeLaw
import proofs.«101756_j60687887892956_2_alg».proof.Proof.MoeKernel
import proofs.«101756_j60687887892956_2_alg».proof.Proof.MoeRef
import proofs.«101756_j60687887892956_2_alg».proof.Proof.MoeFinite
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does the kernel program on the extended reals. -/
theorem frame_kernel_ideal : Cert.frame_KernelIdeal := fun m ρ _ => Cert.KernelIdeal.Gen.frame m ρ

/-- So does the reference on the extended reals: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- For finite arguments the folded layer and the weighted sum of the eight layers are the same array. -/
theorem algebraic : Cert.algebraic_KernelIdeal_ReferenceIdeal := by
  intro m ρ m' ρ' hpre hagree
  refine ⟨fun c => Cert.Moe.mixture (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Moe.run_dense m ρ)
    obtain ⟨h0, h1, h2, h3⟩ := Cert.Moe.Finite.real_of_pre _ _ _ _ (hpre c)
    exact Cert.Moe.dense_fold_eq_mixture _ _ _ _ h0 h1 h2 h3
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v8_eq, Cert.ReferenceIdeal.MoeRef.ref_eq_mixture,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
